-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096x128 : Shape := ⟨4, ![8, 32, 4096, 128]⟩
abbrev S8x32x1x128 : Shape := ⟨4, ![8, 32, 1, 128]⟩
abbrev S_ : Shape := ⟨0, ![]⟩

class Facts : Prop where
  bcast_S_S8x32x4096x128 : S_.BroadcastsInDim S8x32x4096x128 (![] : Fin 0 → Fin S8x32x4096x128.rank)
  reducesTo_S8x32x4096x128_S_d0_1_2_3 : S8x32x4096x128.ReducesTo [0, 1, 2, 3] S_
  h_S_ : 0 < S_.numel
  bcast_S_S8x32x1x128 : S_.BroadcastsInDim S8x32x1x128 (![] : Fin 0 → Fin S8x32x1x128.rank)
  reducesTo_S8x32x1x128_S_d0_1_2_3 : S8x32x1x128.ReducesTo [0, 1, 2, 3] S_

variable [Facts]

def fn_part1 {F : FTy → Type} [FloatOps F] (main_v13 : IVec S_ 1) (main_v16 : IVec S8x32x1x128 1) : IVec S_ 1 :=
  let main_c_5 : IVec S_ 1 := constantI S_ 1 1#1
  let main_v17 : IVec S_ 1 := (fun x v => Host.reduce IntOp.andi x v reducesTo_S8x32x1x128_S_d0_1_2_3 h_S_) main_v16 main_c_5
  let main_v18 : IVec S_ 1 := andi main_v13 main_v17
  main_v18

def fn {F : FTy → Type} [FloatOps F] (main_arg0 : FVec F S8x32x4096x128 .f32) (main_arg1 : FVec F S8x32x4096x128 .f32) (main_arg2 : FVec F S8x32x1x128 .f32) (main_arg3 : FVec F S8x32x1x128 .f32) : IVec S_ 1 :=
  let main_v0 : FVec F S8x32x4096x128 .f32 := Host.absf main_arg0
  let main_cst : FVec F S_ .f32 := constant S_ .f32 0x7F800000#32
  let main_v1 : FVec F S8x32x4096x128 .f32 := broadcastInDim S8x32x4096x128 ![] bcast_S_S8x32x4096x128 main_cst
  let main_v2 : IVec S8x32x4096x128 1 := cmpf .olt main_v0 main_v1
  let main_c : IVec S_ 1 := constantI S_ 1 1#1
  let main_v3 : IVec S_ 1 := (fun x v => Host.reduce IntOp.andi x v reducesTo_S8x32x4096x128_S_d0_1_2_3 h_S_) main_v2 main_c
  let main_v4 : FVec F S8x32x4096x128 .f32 := Host.absf main_arg1
  let main_cst_0 : FVec F S_ .f32 := constant S_ .f32 0x7F800000#32
  let main_v5 : FVec F S8x32x4096x128 .f32 := broadcastInDim S8x32x4096x128 ![] bcast_S_S8x32x4096x128 main_cst_0
  let main_v6 : IVec S8x32x4096x128 1 := cmpf .olt main_v4 main_v5
  let main_c_1 : IVec S_ 1 := constantI S_ 1 1#1
  let main_v7 : IVec S_ 1 := (fun x v => Host.reduce IntOp.andi x v reducesTo_S8x32x4096x128_S_d0_1_2_3 h_S_) main_v6 main_c_1
  let main_v8 : IVec S_ 1 := andi main_v3 main_v7
  let main_v9 : FVec F S8x32x1x128 .f32 := Host.absf main_arg2
  let main_cst_2 : FVec F S_ .f32 := constant S_ .f32 0x7F800000#32
  let main_v10 : FVec F S8x32x1x128 .f32 := broadcastInDim S8x32x1x128 ![] bcast_S_S8x32x1x128 main_cst_2
  let main_v11 : IVec S8x32x1x128 1 := cmpf .olt main_v9 main_v10
  let main_c_3 : IVec S_ 1 := constantI S_ 1 1#1
  let main_v12 : IVec S_ 1 := (fun x v => Host.reduce IntOp.andi x v reducesTo_S8x32x1x128_S_d0_1_2_3 h_S_) main_v11 main_c_3
  let main_v13 : IVec S_ 1 := andi main_v8 main_v12
  let main_v14 : FVec F S8x32x1x128 .f32 := Host.absf main_arg3
  let main_cst_4 : FVec F S_ .f32 := constant S_ .f32 0x7F800000#32
  let main_v15 : FVec F S8x32x1x128 .f32 := broadcastInDim S8x32x1x128 ![] bcast_S_S8x32x1x128 main_cst_4
  let main_v16 : IVec S8x32x1x128 1 := cmpf .olt main_v14 main_v15
  fn_part1 (F := F) main_v13 main_v16
-- ==== Kernel.lean ====
abbrev S8x32x4096x128 : Shape := ⟨4, ![8, 32, 4096, 128]⟩
abbrev S8x32x1x128 : Shape := ⟨4, ![8, 32, 1, 128]⟩
abbrev S8x32x4097x128 : Shape := ⟨4, ![8, 32, 4097, 128]⟩
abbrev S4 : Shape := ⟨1, ![4]⟩
abbrev S1 : Shape := ⟨1, ![1]⟩
abbrev S_ : Shape := ⟨0, ![]⟩
abbrev S1x1x4096x128 : Shape := ⟨4, ![1, 1, 4096, 128]⟩
abbrev S4096x128 : Shape := ⟨2, ![4096, 128]⟩
abbrev S1x1x1x128 : Shape := ⟨4, ![1, 1, 1, 128]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x32x4096x128, .f32⟩
  | .hbm, ⟨1, _⟩ => ⟨S8x32x4096x128, .f32⟩
  | .hbm, ⟨2, _⟩ => ⟨S8x32x1x128, .f32⟩
  | .hbm, ⟨3, _⟩ => ⟨S8x32x1x128, .f32⟩
  | .hbm, ⟨4, _⟩ => ⟨S8x32x4097x128, .f32⟩
  | .hbm, ⟨5, _⟩ => ⟨S8x32x4097x128, .f32⟩
  | _, _ => ⟨S8x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩

abbrev nD : Nat := 1
abbrev τ : Topo := Topo.v7x

variable {F : FTy → Type} [FloatOps F]

abbrev grid0 : Pipeline.Grid := ⟨2, ![8, 32], ![false, false]⟩

def k0_off1 (i : grid0.Coords) : Fin 4 → Nat :=
  let arg0 : BitVec 32 := BitVec.ofNat 32 (i 0).val
  let arg1 : BitVec 32 := BitVec.ofNat 32 (i 1).val
  let c0_i32_0 : BitVec 32 := 0#32
  let c0_i32_1 : BitVec 32 := 0#32
  ![arg0.toNat, arg1.toNat, 0, 0]
def k0_off2 (i : grid0.Coords) : Fin 4 → Nat :=
  let arg0 : BitVec 32 := BitVec.ofNat 32 (i 0).val
  let arg1 : BitVec 32 := BitVec.ofNat 32 (i 1).val
  let c0_i32_2 : BitVec 32 := 0#32
  let c0_i32_3 : BitVec 32 := 0#32
  ![arg0.toNat, arg1.toNat, 0, 0]
def k0_off3 (i : grid0.Coords) : Fin 4 → Nat :=
  let arg0 : BitVec 32 := BitVec.ofNat 32 (i 0).val
  let arg1 : BitVec 32 := BitVec.ofNat 32 (i 1).val
  let c4096_i32 : BitVec 32 := 4096#32
  let c0_i32_4 : BitVec 32 := 0#32
  ![arg0.toNat, arg1.toNat, 4096, 0]
def k0_off4 (i : grid0.Coords) : Fin 4 → Nat :=
  let arg0 : BitVec 32 := BitVec.ofNat 32 (i 0).val
  let arg1 : BitVec 32 := BitVec.ofNat 32 (i 1).val
  let c0_i32_5 : BitVec 32 := 0#32
  let c0_i32_6 : BitVec 32 := 0#32
  ![arg0.toNat, arg1.toNat, 0, 0]

class Facts₀ : Prop where
  inb_S4_S1_0 : ∀ a, (![0] : Fin 1 → Nat) a + S1.size a ≤ S4.size a
  squeezes_S1_S_ : S1.Squeezes S_
  squeezes_S1x1x4096x128_S4096x128 : S1x1x4096x128.Squeezes S4096x128
  inb_S4_S1_1 : ∀ a, (![1] : Fin 1 → Nat) a + S1.size a ≤ S4.size a
  squeezes_S1x1x1x128_S1x128 : S1x1x1x128.Squeezes S1x128
  inb_S4_S1_2 : ∀ a, (![2] : Fin 1 → Nat) a + S1.size a ≤ S4.size a
  inb_S4_S1_3 : ∀ a, (![3] : Fin 1 → Nat) a + S1.size a ≤ S4.size a
  hcc0_scratch0 : 0 + S4.numel ≤ 4
  k0_off1_inb : ∀ i : grid0.Coords, ∀ a, (k0_off1 i) a + S1x1x4096x128.size a ≤ S8x32x4097x128.size a
  k0_off2_inb : ∀ i : grid0.Coords, ∀ a, (k0_off2 i) a + S1x1x4096x128.size a ≤ S8x32x4096x128.size a
  k0_off3_inb : ∀ i : grid0.Coords, ∀ a, (k0_off3 i) a + S1x1x1x128.size a ≤ S8x32x4097x128.size a
  k0_off4_inb : ∀ i : grid0.Coords, ∀ a, (k0_off4 i) a + S1x1x1x128.size a ≤ S8x32x1x128.size a

variable [Facts₀]

abbrev cc0_scratch0 : DmaSems sig S4 := SemArray.consecutive 0 S4 hcc0_scratch0

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8x32x4096x128 : Shape := ⟨4, ![8, 32, 4096, 128]⟩
abbrev S8x32x1x128 : Shape := ⟨4, ![8, 32, 1, 128]⟩
abbrev S8x32x4097x128 : Shape := ⟨4, ![8, 32, 4097, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x32x4096x128, .f32⟩
  | .hbm, ⟨1, _⟩ => ⟨S8x32x4096x128, .f32⟩
  | .hbm, ⟨2, _⟩ => ⟨S8x32x1x128, .f32⟩
  | .hbm, ⟨3, _⟩ => ⟨S8x32x1x128, .f32⟩
  | .hbm, ⟨4, _⟩ => ⟨S8x32x4097x128, .f32⟩
  | .hbm, ⟨5, _⟩ => ⟨S8x32x4097x128, .f32⟩
  | _, _ => ⟨S8x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S8x32x4096x128_S8x32x1x128_S8x32x4097x128_d2 : Shape.Concatenates [S8x32x4096x128, S8x32x1x128] S8x32x4097x128 2

variable [Facts₀]

class Facts : Prop extends Facts₀ where

variable [Facts]
-- ==== Proof.BodyBits.lean ====
/-
  The copy kernel's body, run once at a symbolic grid point. At point (b, h) the body starts four transfers between
  arrays left in HBM — the (b, h) slab of the key cache into rows [0, 4096) of the (b, h) slab of the first result, the
  (b, h) row of the new key states into row 4096 of that slab, and the same two for the values into the second result
  — each on a semaphore of its own, and then waits for the four. Nothing is computed: what a point leaves in a result
  array is the array as the point found it with the two source slabs written through the two destination views
  (`slabStepK`, `slabStepV`), the four argument arrays are only read, and the four semaphores are back at zero when
  the point ends.
-/
import proofs.«111090_j45294725104260_2_alg».proof.Proof.Gen.Kernel
import proofs.«111090_j45294725104260_2_alg».proof.Proof.Gen.Kernel.Skeleton
import proofs.«111090_j45294725104260_2_alg».proof.Proof.Gen.Kernel.Launch
import proofs.«111090_j45294725104260_2_alg».proof.Proof.Gen.Kernel.Points
import Idealize.ShloMosaic.Lib.Pipeline.Routed
import Idealize.ShloMosaic.Lib.Tactic

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- Buffer `b`'s contents type on core `c`, and the buffer held whole at `f`. -/
abbrev Bf (c : Dev nD) (b : Ref sig .tc) : Type := Buf (Elt F) ((Memref.whole b).view.loc (c : Thread nD τ))
abbrev pt (c : Dev nD) (b : Ref sig .tc) (f : Bf (F := F) c b) : sProp 𝕄 :=
  (Memref.whole b).view.loc (c : Thread nD τ) ↦{fullShare} f

/-- The kernel's own cells: its four DMA semaphores, one per transfer of a point. -/
abbrev osem : Fin 4 → SemLoc sig := fun | 0 => .dma 0 | 1 => .dma 1 | 2 => .dma 2 | 3 => .dma 3

/-! ## The views a point moves through -/

/-- Rows [0, 4096) of slab (b, h) of a result array, the two unit axes squeezed: where the cache slab lands. -/
abbrev dstC (M : Memref sig .tc .hbm S8x32x4097x128 .f32) (t : Fin cfg0.N) : Memref sig .tc .hbm S4096x128 .f32 :=
  (M.slice (Rect.unit (s := S8x32x4097x128) (k0_off1 (grid0.coords t)) S1x1x4096x128.size (k0_off1_inb (grid0.coords t))) (fun _ => rfl)).squeeze
    S4096x128 squeezes_S1x1x4096x128_S4096x128
/-- Row 4096 of slab (b, h) of a result array: where the new row lands. -/
abbrev dstS (M : Memref sig .tc .hbm S8x32x4097x128 .f32) (t : Fin cfg0.N) : Memref sig .tc .hbm S1x128 .f32 :=
  (M.slice (Rect.unit (s := S8x32x4097x128) (k0_off3 (grid0.coords t)) S1x1x1x128.size (k0_off3_inb (grid0.coords t))) (fun _ => rfl)).squeeze
    S1x128 squeezes_S1x1x1x128_S1x128
/-- Slab (b, h) of a cache array. -/
abbrev srcC (M : Memref sig .tc .hbm S8x32x4096x128 .f32) (t : Fin cfg0.N) : Memref sig .tc .hbm S4096x128 .f32 :=
  (M.slice (Rect.unit (s := S8x32x4096x128) (k0_off2 (grid0.coords t)) S1x1x4096x128.size (k0_off2_inb (grid0.coords t))) (fun _ => rfl)).squeeze
    S4096x128 squeezes_S1x1x4096x128_S4096x128
/-- Row (b, h) of a new-states array. -/
abbrev srcS (M : Memref sig .tc .hbm S8x32x1x128 .f32) (t : Fin cfg0.N) : Memref sig .tc .hbm S1x128 .f32 :=
  (M.slice (Rect.unit (s := S8x32x1x128) (k0_off4 (grid0.coords t)) S1x1x1x128.size (k0_off4_inb (grid0.coords t))) (fun _ => rfl)).squeeze
    S1x128 squeezes_S1x1x1x128_S1x128

/-- What point `t` leaves in the key result found at `f`: the key cache's slab (contents `ac`) written through `dstC`,
    then the new key states' row (contents `ar`) through `dstS`. -/
abbrev slabStepK (c : Dev nD) (t : Fin cfg0.N) (ac : Bf (F := F) c main_arg0) (ar : Bf (F := F) c main_arg2) (f : Bf (F := F) c main_v0_0) : Bf (F := F) c main_v0_0 :=
  (dstS (Memref.whole main_v0_0) t).view.write (Elt F)
    ((dstC (Memref.whole main_v0_0) t).view.write (Elt F) f (ReadAs.same.apply ((srcC (Memref.whole main_arg0) t).view.read (Elt F) ac)) Finset.univ)
    (ReadAs.same.apply ((srcS (Memref.whole main_arg2) t).view.read (Elt F) ar)) Finset.univ

/-- What point `t` leaves in the value result found at `f`: the value cache's slab (contents `ac`) written through `dstC`,
    then the new value states' row (contents `ar`) through `dstS`. -/
abbrev slabStepV (c : Dev nD) (t : Fin cfg0.N) (ac : Bf (F := F) c main_arg1) (ar : Bf (F := F) c main_arg3) (f : Bf (F := F) c main_v0_1) : Bf (F := F) c main_v0_1 :=
  (dstS (Memref.whole main_v0_1) t).view.write (Elt F)
    ((dstC (Memref.whole main_v0_1) t).view.write (Elt F) f (ReadAs.same.apply ((srcC (Memref.whole main_arg1) t).view.read (Elt F) ac)) Finset.univ)
    (ReadAs.same.apply ((srcS (Memref.whole main_arg3) t).view.read (Elt F) ar)) Finset.univ

/-- THE BODY'S RUN at point `t`: from the six arrays held whole, the four cells at zero and the core's `owes`, the body
    runs to its return, handing back the arguments as they were, each result array one slab step further, the cells
    at zero and `owes` with the four waits recorded. -/
theorem kernelRun (c : Dev nD) (t : Fin cfg0.N)
    (a0 : Bf (F := F) c main_arg0) (a1 : Bf (F := F) c main_arg1) (a2 : Bf (F := F) c main_arg2) (a3 : Bf (F := F) c main_arg3)
    (fk : Bf (F := F) c main_v0_0) (fv : Bf (F := F) c main_v0_1) (W : Waits sig Unit) (Q : PUnit → sProp 𝕄) :
    iprop(pt c main_arg0 a0 ∗ pt c main_arg1 a1 ∗ pt c main_arg2 a2 ∗ pt c main_arg3 a3 ∗ pt c main_v0_0 fk ∗ pt c main_v0_1 fv
      ∗ semVal ((c : Thread nD τ), osem 0) 0 ∗ semVal ((c : Thread nD τ), osem 1) 0 ∗ semVal ((c : Thread nD τ), osem 2) 0
      ∗ semVal ((c : Thread nD τ), osem 3) 0 ∗ owes (c : Thread nD τ) 0 W
      ∗ (iprop(pt c main_arg0 a0 ∗ pt c main_arg1 a1 ∗ pt c main_arg2 a2 ∗ pt c main_arg3 a3
            ∗ pt c main_v0_0 (slabStepK c t a0 a2 fk) ∗ pt c main_v0_1 (slabStepV c t a1 a3 fv)
            ∗ semVal ((c : Thread nD τ), osem 0) 0 ∗ semVal ((c : Thread nD τ), osem 1) 0 ∗ semVal ((c : Thread nD τ), osem 2) 0
            ∗ semVal ((c : Thread nD τ), osem 3) 0 ∗ ∃ W, owes (c : Thread nD τ) 0 W) -∗ Q ⟨⟩))
      ⊢ wp frame (wpE (defs₀ (F := F)) Variants.none c none) Set.univ (bodyAt0 (F := F) t) Q := by
  iintro ⟨H0, H1, H2, H3, Hk, Hv, Hs0, Hs1, Hs2, Hs3, HO, HQ⟩
  sl_exec!
  sl_step
  iapply HQ
  isplitl [H0]; · iexact H0
  isplitl [H1]; · iexact H1
  isplitl [H2]; · iexact H2
  isplitl [H3]; · iexact H3
  isplitl [Hk]; · iexact Hk
  isplitl [Hv]; · iexact Hv
  isplitl [Hs0]; · iexact Hs0
  isplitl [Hs1]; · iexact Hs1
  isplitl [Hs2]; · iexact Hs2
  isplitl [Hs3]; · iexact Hs3
  iexists _; iexact HO

end Cert.Proof.K

end
-- ==== Proof.RunBits.lean ====
/-
  The copy kernel's run: the proof data over its 256 grid points and the launch. No operand is staged by the pipeline:
  the six arrays stay in HBM and are routed through the body's invariant, which says, before point n, that the four
  arguments hold their launch contents, that each result array holds its launch contents with the slabs of the points
  0 … n − 1 written (`outK`, `outV`: one slab step per point, by recursion on n), and that the four cells are at zero.
  Each point's body run (the module before this one) carries the invariant from n to n + 1, and the routed launch
  theorem of the pipeline library turns that into the run of @main: every weakly fair execution terminates, and in
  every final state the arguments are as launched and the results hold `outK` / `outV` at all 256 points.
-/
import proofs.«111090_j45294725104260_2_alg».proof.Proof.BodyBits
import proofs.«111090_j45294725104260_2_alg».proof.Proof.Gen.Kernel.Frame

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## What the result arrays hold after the first n points -/

/-- The key result after the points 0 … n − 1: its launch contents, one slab step per point. -/
def outK (c : Dev nD) : ℕ → Bf (F := F) c main_v0_0
  | 0 => V m c main_v0_0
  | n + 1 => if h : n < cfg0.N then slabStepK c ⟨n, h⟩ (V m c main_arg0) (V m c main_arg2) (outK c n) else outK c n
/-- The value result after the points 0 … n − 1. -/
def outV (c : Dev nD) : ℕ → Bf (F := F) c main_v0_1
  | 0 => V m c main_v0_1
  | n + 1 => if h : n < cfg0.N then slabStepV c ⟨n, h⟩ (V m c main_arg1) (V m c main_arg3) (outV c n) else outV c n

omit [FloatOps F] in
theorem outK_succ (c : Dev nD) (t : Fin cfg0.N) :
    outK m c (t.val + 1) = slabStepK c t (V m c main_arg0) (V m c main_arg2) (outK m c t.val) := by
  rw [outK, dif_pos t.isLt]
omit [FloatOps F] in
theorem outV_succ (c : Dev nD) (t : Fin cfg0.N) :
    outV m c (t.val + 1) = slabStepV c t (V m c main_arg1) (V m c main_arg3) (outV m c t.val) := by
  rw [outV, dif_pos t.isLt]

/-- The routed buffers: every unscoped buffer of the core (no window stages any). -/
abbrev R6 : Finset (Ref sig .tc) := Pipeline.restRefs sig cfg0.spec

/-- The routed buffers' contents before point n: the arguments as launched, the results at `outK n` / `outV n`. -/
def Yat (c : Dev nD) (n : ℕ) : (b : Ref sig .tc) → Buf (Elt F) ((c : Thread nD τ).loc b) :=
  Function.update (Function.update (V m c) main_v0_0 (outK m c n)) main_v0_1 (outV m c n)

omit [FloatOps F] in
theorem Yat_v0_1 (c : Dev nD) (n : ℕ) : Yat m c n main_v0_1 = outV m c n := Function.update_self ..
omit [FloatOps F] in
theorem Yat_v0_0 (c : Dev nD) (n : ℕ) : Yat m c n main_v0_0 = outK m c n := by
  unfold Yat; rw [Function.update_of_ne (by decide)]; exact Function.update_self ..
omit [FloatOps F] in
theorem Yat_arg0 (c : Dev nD) (n : ℕ) : Yat m c n main_arg0 = V m c main_arg0 := by
  unfold Yat; rw [Function.update_of_ne (by decide), Function.update_of_ne (by decide)]
omit [FloatOps F] in
theorem Yat_arg1 (c : Dev nD) (n : ℕ) : Yat m c n main_arg1 = V m c main_arg1 := by
  unfold Yat; rw [Function.update_of_ne (by decide), Function.update_of_ne (by decide)]
omit [FloatOps F] in
theorem Yat_arg2 (c : Dev nD) (n : ℕ) : Yat m c n main_arg2 = V m c main_arg2 := by
  unfold Yat; rw [Function.update_of_ne (by decide), Function.update_of_ne (by decide)]
omit [FloatOps F] in
theorem Yat_arg3 (c : Dev nD) (n : ℕ) : Yat m c n main_arg3 = V m c main_arg3 := by
  unfold Yat; rw [Function.update_of_ne (by decide), Function.update_of_ne (by decide)]
omit [FloatOps F] in
/-- Before the first point the routed buffers hold their launch contents. -/
theorem Yat_zero (c : Dev nD) : Yat m c 0 = V m c := by
  unfold Yat outK outV; rw [Function.update_eq_self, Function.update_eq_self]

/-! ## The proof data -/

/-- The proof data on core `c`: no window; the invariant before point `t` is the library's `Ends` at the contents
    `Yat t`; nothing owed. -/
def dats (_ : Fin 1) (c : Dev nD) : Dat τ (Elt F) Unit ℕ (UC sig nD τ) ℕ cfg0 c where
  A w := w.elim0
  after w := w.elim0
  Φ t := Ends cfg0.spec osem R6 c (Yat m c t.val)
  q _ := fullShare
  owed _ := 0

abbrev 𝒱₀ : Variants := Variants.none

omit [FloatOps F] in
/-- The kernel's own cells at zero, listed. -/
theorem ownSems0_eq (c : Dev nD) :
    (Pipeline.ownSems0 (Ix := Unit) (Name := ℕ) (U := UC sig nD τ) (Lvl := ℕ) (Val := Elt F) (τ := τ) osem c : sProp 𝕄)
      = iprop(semVal ((c : Thread nD τ), osem 0) 0 ∗ semVal ((c : Thread nD τ), osem 1) 0 ∗ semVal ((c : Thread nD τ), osem 2) 0
          ∗ semVal ((c : Thread nD τ), osem 3) 0) :=
  Pipeline.ownSems0_eq_of_list c osem [0, 1, 2, 3] (by decide) (by decide)

omit [FloatOps F] in
/-- `Ends` at this program's lists: the six arrays, the four cells, no scoped rest, the generator register. -/
theorem ends_eq (c : Dev nD) (W : (b : Ref sig .tc) → Buf (Elt F) ((c : Thread nD τ).loc b)) :
    (Ends cfg0.spec osem R6 c W : sProp 𝕄)
      = iprop((pt c main_arg0 (W main_arg0) ∗ pt c main_arg1 (W main_arg1) ∗ pt c main_arg2 (W main_arg2) ∗ pt c main_arg3 (W main_arg3)
            ∗ pt c main_v0_0 (W main_v0_0) ∗ pt c main_v0_1 (W main_v0_1))
          ∗ (semVal ((c : Thread nD τ), osem 0) 0 ∗ semVal ((c : Thread nD τ), osem 1) 0 ∗ semVal ((c : Thread nD τ), osem 2) 0
            ∗ semVal ((c : Thread nD τ), osem 3) 0)
          ∗ emp ∗ ∃ r, prngReg c r) := by
  unfold Ends
  rw [show (Pipeline.routed R6 c W : sProp 𝕄) = Pipeline.unscopedRest (Ix := Unit) (Name := ℕ) (U := UC sig nD τ) (Lvl := ℕ) cfg0.spec c W from rfl,
    unscopedRest0_eq, ownSems0_eq, scopedRest0_eq]
  rfl

/-- The core's `owes` as the obligation's post wants it (nothing is taken on). -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The library's body obligation: at point `t` the invariant is taken apart into the six arrays and the four cells, the
    body's run is applied at the contents before the point, and what it hands back is the invariant of the next point. -/
theorem body_obligation (c : Dev nD) : BodyObligation (dats (F := F) m 0 c) (defs₀ (F := F)) 𝒱₀ () Set.univ := fun t => by
  rw [show (Finset.univ : Finset (Fin cfg0.W)) = ∅ from rfl, BI.bigSep_empty, BI.bigSep_empty]
  rw [show (dats m 0 c).Φ t.castSucc = Ends cfg0.spec osem R6 c (Yat m c t.val) from rfl,
    show (dats m 0 c).Φ t.succ = Ends cfg0.spec osem R6 c (Yat m c (t.val + 1)) from rfl, ends_eq, ends_eq]
  simp only [Yat_arg0, Yat_arg1, Yat_arg2, Yat_arg3, Yat_v0_0, Yat_v0_1]
  rw [outK_succ, outV_succ]
  unfold Dat.owesAt Pipeline.owesWithin
  rw [show (dats m 0 c).owed t.castSucc = 0 from rfl]
  iintro ⟨⟨⟨H0, H1, H2, H3, Hk, Hv⟩, ⟨Hs0, Hs1, Hs2, Hs3⟩, -, Hp⟩, ⟨%W, %hW, HO⟩, -⟩
  iapply (kernelRun c t (V m c main_arg0) (V m c main_arg1) (V m c main_arg2) (V m c main_arg3) (outK m c t.val) (outV m c t.val) W)
  isplitl [H0]; · iexact H0
  isplitl [H1]; · iexact H1
  isplitl [H2]; · iexact H2
  isplitl [H3]; · iexact H3
  isplitl [Hk]; · iexact Hk
  isplitl [Hv]; · iexact Hv
  isplitl [Hs0]; · iexact Hs0
  isplitl [Hs1]; · iexact Hs1
  isplitl [Hs2]; · iexact Hs2
  isplitl [Hs3]; · iexact Hs3
  isplitl [HO]; · iexact HO
  iintro ⟨H0, H1, H2, H3, Hk, Hv, Hs0, Hs1, Hs2, Hs3, ⟨%W', HO⟩⟩
  isplitl [H0 H1 H2 H3 Hk Hv Hs0 Hs1 Hs2 Hs3 Hp]
  · isplitl [H0 H1 H2 H3 Hk Hv]
    · isplitl [H0]; · iexact H0
      isplitl [H1]; · iexact H1
      isplitl [H2]; · iexact H2
      isplitl [H3]; · iexact H3
      isplitl [Hk]; · iexact Hk
      iexact Hv
    isplitl [Hs0 Hs1 Hs2 Hs3]
    · isplitl [Hs0]; · iexact Hs0
      isplitl [Hs1]; · iexact Hs1
      isplitl [Hs2]; · iexact Hs2
      iexact Hs3
    isplitr; · iempintro
    iexact Hp
  isplitl [HO]; · iapply (owesAt_intro m c); iexact HO
  iempintro

/-! ## The launch -/

/-- The layout the launch needs of the kernel's own semaphores: scoped, distinct, and no staging semaphore. -/
theorem ownSemFacts : Pipeline.OwnSemFacts cfg0.spec osem := by decide

/-- The routed buffers' contents after the last point. -/
def Yend (c : Dev nD) : (b : Ref sig .tc) → Buf (Elt F) ((c : Thread nD τ).loc b) := Yat m c cfg0.N

/-- At the compiled mesh, for any float values, from any memory with zero counters: every weakly fair execution of
    @main on the TensorCores terminates, and every final state has the six arrays at `Yend`. -/
theorem run_main : θ_run defs (onTc (τ := τ) (main (F := F))) (s₀ m ρ) (RoutedPost cfgs (dats m) 0 R6 (V m) (Yend m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_region cfgs 0 defs₀ 𝒱₀ m main fun c => (main_chain c).trans rfl)
    (hA := fun _ w => w.elim0) (R := R6) (hR := subset_rfl) (Y := Yend m)
    (hin := fun c => by rw [show (dats m 0 c).Φ 0 = Ends cfg0.spec osem R6 c (Yat m c 0) from rfl, Yat_zero])
    (hout := fun _ => .rfl)

/-! ## The final contents, read off the post -/

variable {m ρ}

theorem mem_R6 (b : Ref sig .tc) (hs : b.isScoped = false) : b ∈ R6 := Pipeline.mem_restRefs_of b hs (fun w => w.elim0)

/-- After the run the results hold every point's slab, -/
theorem final_v0_0 {r : PUnit × MemSt nD τ sig (Elt F)} (h : RoutedPost cfgs (dats m) 0 R6 (V m) (Yend m) r) (c : Dev nD) :
    r.2.mem ((c : Thread nD τ).loc main_v0_0) = outK m c cfg0.N :=
  ((h c).2.1 main_v0_0 (mem_R6 _ (by decide))).trans (Yat_v0_0 m c _)
theorem final_v0_1 {r : PUnit × MemSt nD τ sig (Elt F)} (h : RoutedPost cfgs (dats m) 0 R6 (V m) (Yend m) r) (c : Dev nD) :
    r.2.mem ((c : Thread nD τ).loc main_v0_1) = outV m c cfg0.N :=
  ((h c).2.1 main_v0_1 (mem_R6 _ (by decide))).trans (Yat_v0_1 m c _)
/-- and the four arguments what they held at launch. -/
theorem final_arg0 {r : PUnit × MemSt nD τ sig (Elt F)} (h : RoutedPost cfgs (dats m) 0 R6 (V m) (Yend m) r) (c : Dev nD) :
    r.2.mem ((c : Thread nD τ).loc main_arg0) = m ((c : Thread nD τ).loc main_arg0) :=
  ((h c).2.1 main_arg0 (mem_R6 _ (by decide))).trans (Yat_arg0 m c _)
theorem final_arg1 {r : PUnit × MemSt nD τ sig (Elt F)} (h : RoutedPost cfgs (dats m) 0 R6 (V m) (Yend m) r) (c : Dev nD) :
    r.2.mem ((c : Thread nD τ).loc main_arg1) = m ((c : Thread nD τ).loc main_arg1) :=
  ((h c).2.1 main_arg1 (mem_R6 _ (by decide))).trans (Yat_arg1 m c _)
theorem final_arg2 {r : PUnit × MemSt nD τ sig (Elt F)} (h : RoutedPost cfgs (dats m) 0 R6 (V m) (Yend m) r) (c : Dev nD) :
    r.2.mem ((c : Thread nD τ).loc main_arg2) = m ((c : Thread nD τ).loc main_arg2) :=
  ((h c).2.1 main_arg2 (mem_R6 _ (by decide))).trans (Yat_arg2 m c _)
theorem final_arg3 {r : PUnit × MemSt nD τ sig (Elt F)} (h : RoutedPost cfgs (dats m) 0 R6 (V m) (Yend m) r) (c : Dev nD) :
    r.2.mem ((c : Thread nD τ).loc main_arg3) = m ((c : Thread nD τ).loc main_arg3) :=
  ((h c).2.1 main_arg3 (mem_R6 _ (by decide))).trans (Yat_arg3 m c _)

end Cert.Proof.K

end
-- ==== Proof.BodyIdeal.lean ====
/-
  The copy kernel's body, run once at a symbolic grid point. At point (b, h) the body starts four transfers between
  arrays left in HBM — the (b, h) slab of the key cache into rows [0, 4096) of the (b, h) slab of the first result, the
  (b, h) row of the new key states into row 4096 of that slab, and the same two for the values into the second result
  — each on a semaphore of its own, and then waits for the four. Nothing is computed: what a point leaves in a result
  array is the array as the point found it with the two source slabs written through the two destination views
  (`slabStepK`, `slabStepV`), the four argument arrays are only read, and the four semaphores are back at zero when
  the point ends.
-/
import proofs.«111090_j45294725104260_2_alg».proof.Proof.Gen.KernelIdeal
import proofs.«111090_j45294725104260_2_alg».proof.Proof.Gen.KernelIdeal.Skeleton
import proofs.«111090_j45294725104260_2_alg».proof.Proof.Gen.KernelIdeal.Launch
import proofs.«111090_j45294725104260_2_alg».proof.Proof.Gen.KernelIdeal.Points
import Idealize.ShloMosaic.Lib.Pipeline.Routed
import Idealize.ShloMosaic.Lib.Tactic

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- Buffer `b`'s contents type on core `c`, and the buffer held whole at `f`. -/
abbrev Bf (c : Dev nD) (b : Ref sig .tc) : Type := Buf (Elt F) ((Memref.whole b).view.loc (c : Thread nD τ))
abbrev pt (c : Dev nD) (b : Ref sig .tc) (f : Bf (F := F) c b) : sProp 𝕄 :=
  (Memref.whole b).view.loc (c : Thread nD τ) ↦{fullShare} f

/-- The kernel's own cells: its four DMA semaphores, one per transfer of a point. -/
abbrev osem : Fin 4 → SemLoc sig := fun | 0 => .dma 0 | 1 => .dma 1 | 2 => .dma 2 | 3 => .dma 3

/-! ## The views a point moves through -/

/-- Rows [0, 4096) of slab (b, h) of a result array, the two unit axes squeezed: where the cache slab lands. -/
abbrev dstC (M : Memref sig .tc .hbm S8x32x4097x128 .f32) (t : Fin cfg0.N) : Memref sig .tc .hbm S4096x128 .f32 :=
  (M.slice (Rect.unit (s := S8x32x4097x128) (k0_off1 (grid0.coords t)) S1x1x4096x128.size (k0_off1_inb (grid0.coords t))) (fun _ => rfl)).squeeze
    S4096x128 squeezes_S1x1x4096x128_S4096x128
/-- Row 4096 of slab (b, h) of a result array: where the new row lands. -/
abbrev dstS (M : Memref sig .tc .hbm S8x32x4097x128 .f32) (t : Fin cfg0.N) : Memref sig .tc .hbm S1x128 .f32 :=
  (M.slice (Rect.unit (s := S8x32x4097x128) (k0_off3 (grid0.coords t)) S1x1x1x128.size (k0_off3_inb (grid0.coords t))) (fun _ => rfl)).squeeze
    S1x128 squeezes_S1x1x1x128_S1x128
/-- Slab (b, h) of a cache array. -/
abbrev srcC (M : Memref sig .tc .hbm S8x32x4096x128 .f32) (t : Fin cfg0.N) : Memref sig .tc .hbm S4096x128 .f32 :=
  (M.slice (Rect.unit (s := S8x32x4096x128) (k0_off2 (grid0.coords t)) S1x1x4096x128.size (k0_off2_inb (grid0.coords t))) (fun _ => rfl)).squeeze
    S4096x128 squeezes_S1x1x4096x128_S4096x128
/-- Row (b, h) of a new-states array. -/
abbrev srcS (M : Memref sig .tc .hbm S8x32x1x128 .f32) (t : Fin cfg0.N) : Memref sig .tc .hbm S1x128 .f32 :=
  (M.slice (Rect.unit (s := S8x32x1x128) (k0_off4 (grid0.coords t)) S1x1x1x128.size (k0_off4_inb (grid0.coords t))) (fun _ => rfl)).squeeze
    S1x128 squeezes_S1x1x1x128_S1x128

/-- What point `t` leaves in the key result found at `f`: the key cache's slab (contents `ac`) written through `dstC`,
    then the new key states' row (contents `ar`) through `dstS`. -/
abbrev slabStepK (c : Dev nD) (t : Fin cfg0.N) (ac : Bf (F := F) c main_arg0) (ar : Bf (F := F) c main_arg2) (f : Bf (F := F) c main_v0_0) : Bf (F := F) c main_v0_0 :=
  (dstS (Memref.whole main_v0_0) t).view.write (Elt F)
    ((dstC (Memref.whole main_v0_0) t).view.write (Elt F) f (ReadAs.same.apply ((srcC (Memref.whole main_arg0) t).view.read (Elt F) ac)) Finset.univ)
    (ReadAs.same.apply ((srcS (Memref.whole main_arg2) t).view.read (Elt F) ar)) Finset.univ

/-- What point `t` leaves in the value result found at `f`: the value cache's slab (contents `ac`) written through `dstC`,
    then the new value states' row (contents `ar`) through `dstS`. -/
abbrev slabStepV (c : Dev nD) (t : Fin cfg0.N) (ac : Bf (F := F) c main_arg1) (ar : Bf (F := F) c main_arg3) (f : Bf (F := F) c main_v0_1) : Bf (F := F) c main_v0_1 :=
  (dstS (Memref.whole main_v0_1) t).view.write (Elt F)
    ((dstC (Memref.whole main_v0_1) t).view.write (Elt F) f (ReadAs.same.apply ((srcC (Memref.whole main_arg1) t).view.read (Elt F) ac)) Finset.univ)
    (ReadAs.same.apply ((srcS (Memref.whole main_arg3) t).view.read (Elt F) ar)) Finset.univ

/-- THE BODY'S RUN at point `t`: from the six arrays held whole, the four cells at zero and the core's `owes`, the body
    runs to its return, handing back the arguments as they were, each result array one slab step further, the cells
    at zero and `owes` with the four waits recorded. -/
theorem kernelRun (c : Dev nD) (t : Fin cfg0.N)
    (a0 : Bf (F := F) c main_arg0) (a1 : Bf (F := F) c main_arg1) (a2 : Bf (F := F) c main_arg2) (a3 : Bf (F := F) c main_arg3)
    (fk : Bf (F := F) c main_v0_0) (fv : Bf (F := F) c main_v0_1) (W : Waits sig Unit) (Q : PUnit → sProp 𝕄) :
    iprop(pt c main_arg0 a0 ∗ pt c main_arg1 a1 ∗ pt c main_arg2 a2 ∗ pt c main_arg3 a3 ∗ pt c main_v0_0 fk ∗ pt c main_v0_1 fv
      ∗ semVal ((c : Thread nD τ), osem 0) 0 ∗ semVal ((c : Thread nD τ), osem 1) 0 ∗ semVal ((c : Thread nD τ), osem 2) 0
      ∗ semVal ((c : Thread nD τ), osem 3) 0 ∗ owes (c : Thread nD τ) 0 W
      ∗ (iprop(pt c main_arg0 a0 ∗ pt c main_arg1 a1 ∗ pt c main_arg2 a2 ∗ pt c main_arg3 a3
            ∗ pt c main_v0_0 (slabStepK c t a0 a2 fk) ∗ pt c main_v0_1 (slabStepV c t a1 a3 fv)
            ∗ semVal ((c : Thread nD τ), osem 0) 0 ∗ semVal ((c : Thread nD τ), osem 1) 0 ∗ semVal ((c : Thread nD τ), osem 2) 0
            ∗ semVal ((c : Thread nD τ), osem 3) 0 ∗ ∃ W, owes (c : Thread nD τ) 0 W) -∗ Q ⟨⟩))
      ⊢ wp frame (wpE (defs₀ (F := F)) Variants.none c none) Set.univ (bodyAt0 (F := F) t) Q := by
  iintro ⟨H0, H1, H2, H3, Hk, Hv, Hs0, Hs1, Hs2, Hs3, HO, HQ⟩
  sl_exec!
  sl_step
  iapply HQ
  isplitl [H0]; · iexact H0
  isplitl [H1]; · iexact H1
  isplitl [H2]; · iexact H2
  isplitl [H3]; · iexact H3
  isplitl [Hk]; · iexact Hk
  isplitl [Hv]; · iexact Hv
  isplitl [Hs0]; · iexact Hs0
  isplitl [Hs1]; · iexact Hs1
  isplitl [Hs2]; · iexact Hs2
  isplitl [Hs3]; · iexact Hs3
  iexists _; iexact HO

end Cert.Proof.KI

end
-- ==== Proof.RunIdeal.lean ====
/-
  The copy kernel's run: the proof data over its 256 grid points and the launch. No operand is staged by the pipeline:
  the six arrays stay in HBM and are routed through the body's invariant, which says, before point n, that the four
  arguments hold their launch contents, that each result array holds its launch contents with the slabs of the points
  0 … n − 1 written (`outK`, `outV`: one slab step per point, by recursion on n), and that the four cells are at zero.
  Each point's body run (the module before this one) carries the invariant from n to n + 1, and the routed launch
  theorem of the pipeline library turns that into the run of @main: every weakly fair execution terminates, and in
  every final state the arguments are as launched and the results hold `outK` / `outV` at all 256 points.
-/
import proofs.«111090_j45294725104260_2_alg».proof.Proof.BodyIdeal
import proofs.«111090_j45294725104260_2_alg».proof.Proof.Gen.KernelIdeal.Frame

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-! ## What the result arrays hold after the first n points -/

/-- The key result after the points 0 … n − 1: its launch contents, one slab step per point. -/
def outK (c : Dev nD) : ℕ → Bf (F := F) c main_v0_0
  | 0 => V m c main_v0_0
  | n + 1 => if h : n < cfg0.N then slabStepK c ⟨n, h⟩ (V m c main_arg0) (V m c main_arg2) (outK c n) else outK c n
/-- The value result after the points 0 … n − 1. -/
def outV (c : Dev nD) : ℕ → Bf (F := F) c main_v0_1
  | 0 => V m c main_v0_1
  | n + 1 => if h : n < cfg0.N then slabStepV c ⟨n, h⟩ (V m c main_arg1) (V m c main_arg3) (outV c n) else outV c n

omit [FloatOps F] in
theorem outK_succ (c : Dev nD) (t : Fin cfg0.N) :
    outK m c (t.val + 1) = slabStepK c t (V m c main_arg0) (V m c main_arg2) (outK m c t.val) := by
  rw [outK, dif_pos t.isLt]
omit [FloatOps F] in
theorem outV_succ (c : Dev nD) (t : Fin cfg0.N) :
    outV m c (t.val + 1) = slabStepV c t (V m c main_arg1) (V m c main_arg3) (outV m c t.val) := by
  rw [outV, dif_pos t.isLt]

/-- The routed buffers: every unscoped buffer of the core (no window stages any). -/
abbrev R6 : Finset (Ref sig .tc) := Pipeline.restRefs sig cfg0.spec

/-- The routed buffers' contents before point n: the arguments as launched, the results at `outK n` / `outV n`. -/
def Yat (c : Dev nD) (n : ℕ) : (b : Ref sig .tc) → Buf (Elt F) ((c : Thread nD τ).loc b) :=
  Function.update (Function.update (V m c) main_v0_0 (outK m c n)) main_v0_1 (outV m c n)

omit [FloatOps F] in
theorem Yat_v0_1 (c : Dev nD) (n : ℕ) : Yat m c n main_v0_1 = outV m c n := Function.update_self ..
omit [FloatOps F] in
theorem Yat_v0_0 (c : Dev nD) (n : ℕ) : Yat m c n main_v0_0 = outK m c n := by
  unfold Yat; rw [Function.update_of_ne (by decide)]; exact Function.update_self ..
omit [FloatOps F] in
theorem Yat_arg0 (c : Dev nD) (n : ℕ) : Yat m c n main_arg0 = V m c main_arg0 := by
  unfold Yat; rw [Function.update_of_ne (by decide), Function.update_of_ne (by decide)]
omit [FloatOps F] in
theorem Yat_arg1 (c : Dev nD) (n : ℕ) : Yat m c n main_arg1 = V m c main_arg1 := by
  unfold Yat; rw [Function.update_of_ne (by decide), Function.update_of_ne (by decide)]
omit [FloatOps F] in
theorem Yat_arg2 (c : Dev nD) (n : ℕ) : Yat m c n main_arg2 = V m c main_arg2 := by
  unfold Yat; rw [Function.update_of_ne (by decide), Function.update_of_ne (by decide)]
omit [FloatOps F] in
theorem Yat_arg3 (c : Dev nD) (n : ℕ) : Yat m c n main_arg3 = V m c main_arg3 := by
  unfold Yat; rw [Function.update_of_ne (by decide), Function.update_of_ne (by decide)]
omit [FloatOps F] in
/-- Before the first point the routed buffers hold their launch contents. -/
theorem Yat_zero (c : Dev nD) : Yat m c 0 = V m c := by
  unfold Yat outK outV; rw [Function.update_eq_self, Function.update_eq_self]

/-! ## The proof data -/

/-- The proof data on core `c`: no window; the invariant before point `t` is the library's `Ends` at the contents
    `Yat t`; nothing owed. -/
def dats (_ : Fin 1) (c : Dev nD) : Dat τ (Elt F) Unit ℕ (UC sig nD τ) ℕ cfg0 c where
  A w := w.elim0
  after w := w.elim0
  Φ t := Ends cfg0.spec osem R6 c (Yat m c t.val)
  q _ := fullShare
  owed _ := 0

abbrev 𝒱₀ : Variants := Variants.none

omit [FloatOps F] in
/-- The kernel's own cells at zero, listed. -/
theorem ownSems0_eq (c : Dev nD) :
    (Pipeline.ownSems0 (Ix := Unit) (Name := ℕ) (U := UC sig nD τ) (Lvl := ℕ) (Val := Elt F) (τ := τ) osem c : sProp 𝕄)
      = iprop(semVal ((c : Thread nD τ), osem 0) 0 ∗ semVal ((c : Thread nD τ), osem 1) 0 ∗ semVal ((c : Thread nD τ), osem 2) 0
          ∗ semVal ((c : Thread nD τ), osem 3) 0) :=
  Pipeline.ownSems0_eq_of_list c osem [0, 1, 2, 3] (by decide) (by decide)

omit [FloatOps F] in
/-- `Ends` at this program's lists: the six arrays, the four cells, no scoped rest, the generator register. -/
theorem ends_eq (c : Dev nD) (W : (b : Ref sig .tc) → Buf (Elt F) ((c : Thread nD τ).loc b)) :
    (Ends cfg0.spec osem R6 c W : sProp 𝕄)
      = iprop((pt c main_arg0 (W main_arg0) ∗ pt c main_arg1 (W main_arg1) ∗ pt c main_arg2 (W main_arg2) ∗ pt c main_arg3 (W main_arg3)
            ∗ pt c main_v0_0 (W main_v0_0) ∗ pt c main_v0_1 (W main_v0_1))
          ∗ (semVal ((c : Thread nD τ), osem 0) 0 ∗ semVal ((c : Thread nD τ), osem 1) 0 ∗ semVal ((c : Thread nD τ), osem 2) 0
            ∗ semVal ((c : Thread nD τ), osem 3) 0)
          ∗ emp ∗ ∃ r, prngReg c r) := by
  unfold Ends
  rw [show (Pipeline.routed R6 c W : sProp 𝕄) = Pipeline.unscopedRest (Ix := Unit) (Name := ℕ) (U := UC sig nD τ) (Lvl := ℕ) cfg0.spec c W from rfl,
    unscopedRest0_eq, ownSems0_eq, scopedRest0_eq]
  rfl

/-- The core's `owes` as the obligation's post wants it (nothing is taken on). -/
theorem owesAt_intro (c : Dev nD) (t : Fin (cfg0.N + 1)) (W' : Waits sig Unit) :
    owes (c : Thread nD τ) 0 W' ⊢ ((dats m 0 c).owesAt () t : sProp 𝕄) := by
  unfold Dat.owesAt Pipeline.owesWithin
  rw [show (dats m 0 c).owed t = 0 from rfl]
  iintro HO; iexists W'; isplitr; · ipureintro; exact fun _ _ => Or.inl trivial
  iexact HO

/-- The library's body obligation: at point `t` the invariant is taken apart into the six arrays and the four cells, the
    body's run is applied at the contents before the point, and what it hands back is the invariant of the next point. -/
theorem body_obligation (c : Dev nD) : BodyObligation (dats (F := F) m 0 c) (defs₀ (F := F)) 𝒱₀ () Set.univ := fun t => by
  rw [show (Finset.univ : Finset (Fin cfg0.W)) = ∅ from rfl, BI.bigSep_empty, BI.bigSep_empty]
  rw [show (dats m 0 c).Φ t.castSucc = Ends cfg0.spec osem R6 c (Yat m c t.val) from rfl,
    show (dats m 0 c).Φ t.succ = Ends cfg0.spec osem R6 c (Yat m c (t.val + 1)) from rfl, ends_eq, ends_eq]
  simp only [Yat_arg0, Yat_arg1, Yat_arg2, Yat_arg3, Yat_v0_0, Yat_v0_1]
  rw [outK_succ, outV_succ]
  unfold Dat.owesAt Pipeline.owesWithin
  rw [show (dats m 0 c).owed t.castSucc = 0 from rfl]
  iintro ⟨⟨⟨H0, H1, H2, H3, Hk, Hv⟩, ⟨Hs0, Hs1, Hs2, Hs3⟩, -, Hp⟩, ⟨%W, %hW, HO⟩, -⟩
  iapply (kernelRun c t (V m c main_arg0) (V m c main_arg1) (V m c main_arg2) (V m c main_arg3) (outK m c t.val) (outV m c t.val) W)
  isplitl [H0]; · iexact H0
  isplitl [H1]; · iexact H1
  isplitl [H2]; · iexact H2
  isplitl [H3]; · iexact H3
  isplitl [Hk]; · iexact Hk
  isplitl [Hv]; · iexact Hv
  isplitl [Hs0]; · iexact Hs0
  isplitl [Hs1]; · iexact Hs1
  isplitl [Hs2]; · iexact Hs2
  isplitl [Hs3]; · iexact Hs3
  isplitl [HO]; · iexact HO
  iintro ⟨H0, H1, H2, H3, Hk, Hv, Hs0, Hs1, Hs2, Hs3, ⟨%W', HO⟩⟩
  isplitl [H0 H1 H2 H3 Hk Hv Hs0 Hs1 Hs2 Hs3 Hp]
  · isplitl [H0 H1 H2 H3 Hk Hv]
    · isplitl [H0]; · iexact H0
      isplitl [H1]; · iexact H1
      isplitl [H2]; · iexact H2
      isplitl [H3]; · iexact H3
      isplitl [Hk]; · iexact Hk
      iexact Hv
    isplitl [Hs0 Hs1 Hs2 Hs3]
    · isplitl [Hs0]; · iexact Hs0
      isplitl [Hs1]; · iexact Hs1
      isplitl [Hs2]; · iexact Hs2
      iexact Hs3
    isplitr; · iempintro
    iexact Hp
  isplitl [HO]; · iapply (owesAt_intro m c); iexact HO
  iempintro

/-! ## The launch -/

/-- The layout the launch needs of the kernel's own semaphores: scoped, distinct, and no staging semaphore. -/
theorem ownSemFacts : Pipeline.OwnSemFacts cfg0.spec osem := by decide

/-- The routed buffers' contents after the last point. -/
def Yend (c : Dev nD) : (b : Ref sig .tc) → Buf (Elt F) ((c : Thread nD τ).loc b) := Yat m c cfg0.N

/-- At the compiled mesh, for any float values, from any memory with zero counters: every weakly fair execution of
    @main on the TensorCores terminates, and every final state has the six arrays at `Yend`. -/
theorem run_main : θ_run defs (onTc (τ := τ) (main (F := F))) (s₀ m ρ) (RoutedPost cfgs (dats m) 0 R6 (V m) (Yend m)) :=
  Pipeline.θ_run_frame_routed cfgs (dats m) 0 launch0 ownSemFacts defs₀ 𝒱₀ m ρ main
    (hbody := fun c => (body_obligation m c).loose) (hshare := fun c => (dats m 0 c).share_full fun _ => rfl)
    (howed := fun _ _ => rfl) (V := V m)
    (hmain := Pipeline.hmain_region cfgs 0 defs₀ 𝒱₀ m main fun c => (main_chain c).trans rfl)
    (hA := fun _ w => w.elim0) (R := R6) (hR := subset_rfl) (Y := Yend m)
    (hin := fun c => by rw [show (dats m 0 c).Φ 0 = Ends cfg0.spec osem R6 c (Yat m c 0) from rfl, Yat_zero])
    (hout := fun _ => .rfl)

/-! ## The final contents, read off the post -/

variable {m ρ}

theorem mem_R6 (b : Ref sig .tc) (hs : b.isScoped = false) : b ∈ R6 := Pipeline.mem_restRefs_of b hs (fun w => w.elim0)

/-- After the run the results hold every point's slab, -/
theorem final_v0_0 {r : PUnit × MemSt nD τ sig (Elt F)} (h : RoutedPost cfgs (dats m) 0 R6 (V m) (Yend m) r) (c : Dev nD) :
    r.2.mem ((c : Thread nD τ).loc main_v0_0) = outK m c cfg0.N :=
  ((h c).2.1 main_v0_0 (mem_R6 _ (by decide))).trans (Yat_v0_0 m c _)
theorem final_v0_1 {r : PUnit × MemSt nD τ sig (Elt F)} (h : RoutedPost cfgs (dats m) 0 R6 (V m) (Yend m) r) (c : Dev nD) :
    r.2.mem ((c : Thread nD τ).loc main_v0_1) = outV m c cfg0.N :=
  ((h c).2.1 main_v0_1 (mem_R6 _ (by decide))).trans (Yat_v0_1 m c _)
/-- and the four arguments what they held at launch. -/
theorem final_arg0 {r : PUnit × MemSt nD τ sig (Elt F)} (h : RoutedPost cfgs (dats m) 0 R6 (V m) (Yend m) r) (c : Dev nD) :
    r.2.mem ((c : Thread nD τ).loc main_arg0) = m ((c : Thread nD τ).loc main_arg0) :=
  ((h c).2.1 main_arg0 (mem_R6 _ (by decide))).trans (Yat_arg0 m c _)
theorem final_arg1 {r : PUnit × MemSt nD τ sig (Elt F)} (h : RoutedPost cfgs (dats m) 0 R6 (V m) (Yend m) r) (c : Dev nD) :
    r.2.mem ((c : Thread nD τ).loc main_arg1) = m ((c : Thread nD τ).loc main_arg1) :=
  ((h c).2.1 main_arg1 (mem_R6 _ (by decide))).trans (Yat_arg1 m c _)
theorem final_arg2 {r : PUnit × MemSt nD τ sig (Elt F)} (h : RoutedPost cfgs (dats m) 0 R6 (V m) (Yend m) r) (c : Dev nD) :
    r.2.mem ((c : Thread nD τ).loc main_arg2) = m ((c : Thread nD τ).loc main_arg2) :=
  ((h c).2.1 main_arg2 (mem_R6 _ (by decide))).trans (Yat_arg2 m c _)
theorem final_arg3 {r : PUnit × MemSt nD τ sig (Elt F)} (h : RoutedPost cfgs (dats m) 0 R6 (V m) (Yend m) r) (c : Dev nD) :
    r.2.mem ((c : Thread nD τ).loc main_arg3) = m ((c : Thread nD τ).loc main_arg3) :=
  ((h c).2.1 main_arg3 (mem_R6 _ (by decide))).trans (Yat_arg3 m c _)

end Cert.Proof.KI

end
-- ==== Proof.AppendSpec.lean ====
/-
  The mathematics of the claim, with no program in it: a key/value cache of shape [8, 32, 4096, 128] with one new row
  of shape [8, 32, 1, 128] appended along the sequence axis. `appendRow ac ar` reads, at (b, h, s, d), the cache at
  (b, h, s, d) when s < 4096 and the new row at (b, h, 0, d) when s = 4096. A two-piece concatenation along axis 2 is
  that function (`concatenate_eq_appendRow`); and so is what is left after writing, slab by slab in row-major order of
  (b, h), the cache's slab and the new row into an array of shape [8, 32, 4097, 128] (`sweep_eq`: an array that
  after n slabs agrees with `appendRow` on the slabs before n and is untouched elsewhere is `appendRow` after all 256).
-/
import Idealize.ShloMosaic.Lib.ValueIdx
import Idealize.ShloMosaic.Lib.Pipeline.Value

noncomputable section

namespace Cert.Proof.Append

open Idealize.ShloMosaic
open Idealize.ShloMosaic.ValueIdx (ix4)

/-- The cache's, the new row's and the result's shapes. -/
abbrev SC : Shape := ⟨4, ![8, 32, 4096, 128]⟩
abbrev SR : Shape := ⟨4, ![8, 32, 1, 128]⟩
abbrev SO : Shape := ⟨4, ![8, 32, 4097, 128]⟩

variable {α : Type}

/-- The cache with the new row appended along the sequence axis, index by index. -/
def appendRow (ac : SC.Idx → α) (ar : SR.Idx → α) : SO.Idx → α := fun j =>
  if h : (j 2).val < 4096 then ac (ix4 (j 0 : Fin 8) (j 1 : Fin 32) (⟨(j 2).val, h⟩ : Fin 4096) (j 3 : Fin 128))
  else ar (ix4 (j 0 : Fin 8) (j 1 : Fin 32) (0 : Fin 1) (j 3 : Fin 128))

/-- The two-piece concatenation along axis 2 is `appendRow`. -/
theorem concatenate_eq_appendRow (ac : SC.Idx → α) (ar : SR.Idx → α) (h : Shape.Concatenates [SC, SR] SO 2) :
    concatenate SO 2 [⟨SC, ac⟩, ⟨SR, ar⟩] h = appendRow ac ar := by
  funext j
  unfold appendRow
  have hj : (j 2).val < 4097 := (j 2).isLt
  split
  · next hlt =>
    exact concatenate_pair_apply_left 2 ac ar h j rfl _ (fun b => by fin_cases b <;> rfl)
  · next hge =>
    refine concatenate_pair_apply_right 2 ac ar h j rfl rfl _ (fun b hb => ?_) ?_
    · fin_cases b
      · rfl
      · rfl
      · exact absurd rfl hb
      · rfl
    · show 0 + 4096 = (j 2).val
      omega

/-- The number of the slab (b, h) an index lies in, slabs counted in row-major order. -/
def slabOf (j : SO.Idx) : Nat := (j 0).val * 32 + (j 1).val

theorem slabOf_lt (j : SO.Idx) : slabOf j < 256 := by
  have h0 : (j 0).val < 8 := (j 0).isLt
  have h1 : (j 1).val < 32 := (j 1).isLt
  unfold slabOf; omega

/-- A family of arrays, one per number of slabs written: it starts anywhere, and writing slab n makes the array
    `appendRow` on that slab and leaves every other index as it was. After all 256 slabs the array is `appendRow`. -/
theorem sweep_eq (ac : SC.Idx → α) (ar : SR.Idx → α) (out : Nat → SO.Idx → α)
    (hstep : ∀ n, n < 256 → ∀ j, out (n + 1) j = if slabOf j = n then appendRow ac ar j else out n j) :
    out 256 = appendRow ac ar := by
  have key : ∀ n, n ≤ 256 → ∀ j, slabOf j < n → out n j = appendRow ac ar j := by
    intro n
    induction n with
    | zero => intro _ j hj; exact absurd hj (Nat.not_lt_zero _)
    | succ n ih =>
      intro hn j hj
      rw [hstep n (by omega) j]
      by_cases e : slabOf j = n
      · rw [if_pos e]
      · rw [if_neg e]; exact ih (by omega) j (by omega)
  funext j
  exact key 256 (Nat.le_refl _) j (slabOf_lt j)

end Cert.Proof.Append

end
-- ==== Proof.ValueIdeal.lean ====
/-
  What the copy kernel leaves in its two results, index by index. One slab step (the two writes of a grid point, through
  the squeezed slices of the result array) makes the array the cache-with-its-row-appended on the point's slab (b, h) and
  leaves every other index as it was: a destination view covers exactly the indices (b, h, s, ·) with s < 4096 (the cache
  copy) or s = 4096 (the row copy), places its (r, d) at (b, h, r, d) — the squeeze puts the two unit axes back as zeros,
  the slice adds its offsets — and the matching source view reads the cache or the new states at the same (b, h). The
  grid visits the slabs in row-major order, point t at (t / 32, t mod 32), so after all 256 points every index has been
  written once and the results are the two caches with their rows appended, whatever they held at launch.
-/
import proofs.«111090_j45294725104260_2_alg».proof.Proof.RunIdeal
import proofs.«111090_j45294725104260_2_alg».proof.Proof.AppendSpec
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.TcCoe
open Idealize.ShloMosaic.ValueIdx (ix2 ix4 reshapeEquiv_ix2_11ab)

variable {F : FTy → Type} [FloatOps F]

/-- Point `t`'s grid coordinates: (t / 32, t mod 32). -/
theorem coords0 (t : Fin cfg0.N) : ((grid0.coords t) 0).val = t.val / 32 % 8 := rfl
theorem coords1 (t : Fin cfg0.N) : ((grid0.coords t) 1).val = t.val / 1 % 32 := rfl

/-! ## The key result -/

omit [FloatOps F] in
/-- Which indices of the key result point `t`'s cache copy writes: slab (b, h), rows below 4096. -/
theorem memCK (t : Fin cfg0.N) (j : S8x32x4097x128.Idx) :
    j ∈ (dstC (Memref.whole main_v0_0) t).view.set ↔ ((j 0).val = t.val / 32 % 8 ∧ (j 1).val = t.val % 32 ∧ (j 2).val < 4096) := by
  have e : (dstC (Memref.whole main_v0_0) t).view.set
      = (Rect.unit (s := S8x32x4097x128) (k0_off1 (grid0.coords t)) S1x1x4096x128.size (k0_off1_inb (grid0.coords t))).set :=
    (View.set_reshape _ _).trans (View.set_slice_whole _ _)
  rw [e, Rect.mem_set_unit, k0_off1_eq]
  have c0 := coords0 t; have c1 := coords1 t
  constructor
  · intro h
    have h0 : (grid0.coords t 0).val ≤ (j 0).val ∧ (j 0).val < (grid0.coords t 0).val + 1 := h 0
    have h1 : (grid0.coords t 1).val ≤ (j 1).val ∧ (j 1).val < (grid0.coords t 1).val + 1 := h 1
    have h2 : 0 ≤ (j 2).val ∧ (j 2).val < 0 + 4096 := h 2
    omega
  · intro ⟨e0, e1, e2⟩ a
    have h3 : (j 3).val < 128 := (j 3).isLt
    fin_cases a
    · show (grid0.coords t 0).val ≤ (j 0).val ∧ (j 0).val < (grid0.coords t 0).val + 1; omega
    · show (grid0.coords t 1).val ≤ (j 1).val ∧ (j 1).val < (grid0.coords t 1).val + 1; omega
    · show 0 ≤ (j 2).val ∧ (j 2).val < 0 + 4096; omega
    · show 0 ≤ (j 3).val ∧ (j 3).val < 0 + 128; omega

omit [FloatOps F] in
/-- Which indices of the key result point `t`'s row copy writes: slab (b, h), row 4096. -/
theorem memSK (t : Fin cfg0.N) (j : S8x32x4097x128.Idx) :
    j ∈ (dstS (Memref.whole main_v0_0) t).view.set ↔ ((j 0).val = t.val / 32 % 8 ∧ (j 1).val = t.val % 32 ∧ (j 2).val = 4096) := by
  have e : (dstS (Memref.whole main_v0_0) t).view.set
      = (Rect.unit (s := S8x32x4097x128) (k0_off3 (grid0.coords t)) S1x1x1x128.size (k0_off3_inb (grid0.coords t))).set :=
    (View.set_reshape _ _).trans (View.set_slice_whole _ _)
  rw [e, Rect.mem_set_unit, k0_off3_eq]
  have c0 := coords0 t; have c1 := coords1 t
  constructor
  · intro h
    have h0 : (grid0.coords t 0).val ≤ (j 0).val ∧ (j 0).val < (grid0.coords t 0).val + 1 := h 0
    have h1 : (grid0.coords t 1).val ≤ (j 1).val ∧ (j 1).val < (grid0.coords t 1).val + 1 := h 1
    have h2 : 4096 ≤ (j 2).val ∧ (j 2).val < 4096 + 1 := h 2
    omega
  · intro ⟨e0, e1, e2⟩ a
    have h3 : (j 3).val < 128 := (j 3).isLt
    fin_cases a
    · show (grid0.coords t 0).val ≤ (j 0).val ∧ (j 0).val < (grid0.coords t 0).val + 1; omega
    · show (grid0.coords t 1).val ≤ (j 1).val ∧ (j 1).val < (grid0.coords t 1).val + 1; omega
    · show 4096 ≤ (j 2).val ∧ (j 2).val < 4096 + 1; omega
    · show 0 ≤ (j 3).val ∧ (j 3).val < 0 + 128; omega

omit [FloatOps F] in
/-- Where the cache copy's destination view places row `r`, column `d`: (b, h, r, d). -/
theorem embDstCK (t : Fin cfg0.N) (r : Fin 4096) (d : Fin 128) (a : Fin 4) :
    ((dstC (Memref.whole main_v0_0) t).view.emb (ix2 r d) a).val = (![(grid0.coords t 0).val, (grid0.coords t 1).val, r.val, d.val] : Fin 4 → Nat) a := by
  show k0_off1 (grid0.coords t) a + 1 * ((Shape.reshapeEquiv (Shape.Squeezes.numel_eq squeezes_S1x1x4096x128_S4096x128) (ix2 r d)) a).val = _
  rw [reshapeEquiv_ix2_11ab, k0_off1_eq]
  fin_cases a <;> simp [ix4]

omit [FloatOps F] in
/-- Where the row copy's destination view places column `d`: (b, h, 4096, d). -/
theorem embDstSK (t : Fin cfg0.N) (d : Fin 128) (a : Fin 4) :
    ((dstS (Memref.whole main_v0_0) t).view.emb (ix2 (0 : Fin 1) d) a).val = (![(grid0.coords t 0).val, (grid0.coords t 1).val, 4096, d.val] : Fin 4 → Nat) a := by
  show k0_off3 (grid0.coords t) a + 1 * ((Shape.reshapeEquiv (Shape.Squeezes.numel_eq squeezes_S1x1x1x128_S1x128) (ix2 (0 : Fin 1) d)) a).val = _
  rw [reshapeEquiv_ix2_11ab, k0_off3_eq]
  fin_cases a <;> simp [ix4]

omit [FloatOps F] in
/-- Where the cache copy's source view reads row `r`, column `d`: (b, h, r, d) of the cache. -/
theorem embSrcCK (t : Fin cfg0.N) (r : Fin 4096) (d : Fin 128) (a : Fin 4) :
    ((srcC (Memref.whole main_arg0) t).view.emb (ix2 r d) a).val = (![(grid0.coords t 0).val, (grid0.coords t 1).val, r.val, d.val] : Fin 4 → Nat) a := by
  show k0_off2 (grid0.coords t) a + 1 * ((Shape.reshapeEquiv (Shape.Squeezes.numel_eq squeezes_S1x1x4096x128_S4096x128) (ix2 r d)) a).val = _
  rw [reshapeEquiv_ix2_11ab, k0_off2_eq]
  fin_cases a <;> simp [ix4]

omit [FloatOps F] in
/-- Where the row copy's source view reads column `d`: (b, h, 0, d) of the new states. -/
theorem embSrcSK (t : Fin cfg0.N) (d : Fin 128) (a : Fin 4) :
    ((srcS (Memref.whole main_arg2) t).view.emb (ix2 (0 : Fin 1) d) a).val = (![(grid0.coords t 0).val, (grid0.coords t 1).val, 0, d.val] : Fin 4 → Nat) a := by
  show k0_off4 (grid0.coords t) a + 1 * ((Shape.reshapeEquiv (Shape.Squeezes.numel_eq squeezes_S1x1x1x128_S1x128) (ix2 (0 : Fin 1) d)) a).val = _
  rw [reshapeEquiv_ix2_11ab, k0_off4_eq]
  fin_cases a <;> simp [ix4]

/-- One slab step of the key result, index by index: on slab (b, h) of point `t` the cache with its row appended,
    elsewhere what was there. -/
theorem slabStepK_apply (c : Dev nD) (t : Fin cfg0.N) (ac : Bf (F := F) c main_arg0) (ar : Bf (F := F) c main_arg2)
    (f : Bf (F := F) c main_v0_0) (j : S8x32x4097x128.Idx) :
    slabStepK c t ac ar f j = if Append.slabOf j = t.val then Append.appendRow ac ar j else f j := by
  have ht : t.val < 256 := lt_of_lt_of_eq t.isLt N_0
  have h0 : (j 0).val < 8 := (j 0).isLt
  have h1 : (j 1).val < 32 := (j 1).isLt
  have h2 : (j 2).val < 4097 := (j 2).isLt
  have c0 := coords0 t
  have c1 := coords1 t
  by_cases hm : Append.slabOf j = t.val
  · rw [if_pos hm]
    have e0 : (j 0).val = t.val / 32 % 8 := by unfold Append.slabOf at hm; omega
    have e1 : (j 1).val = t.val % 32 := by unfold Append.slabOf at hm; omega
    by_cases hs : (j 2).val < 4096
    · -- a cache row: the row copy does not reach it, the cache copy writes it
      have hnS : j ∉ (dstS (Memref.whole main_v0_0) t).view.setOn Finset.univ := fun h => by
        have := (memSK t j).mp h; omega
      have hy : (dstC (Memref.whole main_v0_0) t).view.emb (ix2 (⟨(j 2).val, hs⟩ : Fin 4096) (j 3 : Fin 128)) = j :=
        funext fun (a : Fin 4) => Fin.ext ((embDstCK t ⟨(j 2).val, hs⟩ (j 3) a).trans (by
          fin_cases a
          · show (grid0.coords t 0).val = (j 0).val; omega
          · show (grid0.coords t 1).val = (j 1).val; omega
          · rfl
          · rfl))
      refine (View.write_of_not_mem _ _ _ hnS).trans ?_
      conv_lhs => rw [← hy, View.write_emb_of_mem _ _ (Finset.mem_univ _)]
      unfold Append.appendRow
      rw [dif_pos hs]
      show ac ((srcC (Memref.whole main_arg0) t).view.emb (ix2 (⟨(j 2).val, hs⟩ : Fin 4096) (j 3 : Fin 128))) = ac _
      exact congrArg ac (funext fun (a : Fin 4) => Fin.ext ((embSrcCK t ⟨(j 2).val, hs⟩ (j 3) a).trans (by
        fin_cases a
        · show (grid0.coords t 0).val = (j 0).val; omega
        · show (grid0.coords t 1).val = (j 1).val; omega
        · rfl
        · rfl)))
    · -- the appended row: the row copy writes it
      have e2 : (j 2).val = 4096 := by omega
      have hy : (dstS (Memref.whole main_v0_0) t).view.emb (ix2 (0 : Fin 1) (j 3 : Fin 128)) = j :=
        funext fun (a : Fin 4) => Fin.ext ((embDstSK t (j 3) a).trans (by
          fin_cases a
          · show (grid0.coords t 0).val = (j 0).val; omega
          · show (grid0.coords t 1).val = (j 1).val; omega
          · show 4096 = (j 2).val; omega
          · rfl))
      show (dstS (Memref.whole main_v0_0) t).view.write (Elt F) _ _ Finset.univ j = _
      conv_lhs => rw [← hy, View.write_emb_of_mem _ _ (Finset.mem_univ _)]
      unfold Append.appendRow
      rw [dif_neg hs]
      show ar ((srcS (Memref.whole main_arg2) t).view.emb (ix2 (0 : Fin 1) (j 3 : Fin 128))) = ar _
      exact congrArg ar (funext fun (a : Fin 4) => Fin.ext ((embSrcSK t (j 3) a).trans (by
        fin_cases a
        · show (grid0.coords t 0).val = (j 0).val; omega
        · show (grid0.coords t 1).val = (j 1).val; omega
        · rfl
        · rfl)))
  · rw [if_neg hm]
    have hnS : j ∉ (dstS (Memref.whole main_v0_0) t).view.setOn Finset.univ := fun h => by
      have := (memSK t j).mp h; unfold Append.slabOf at hm; omega
    have hnC : j ∉ (dstC (Memref.whole main_v0_0) t).view.setOn Finset.univ := fun h => by
      have := (memCK t j).mp h; unfold Append.slabOf at hm; omega
    exact (View.write_of_not_mem _ _ _ hnS).trans (View.write_of_not_mem _ _ _ hnC)

/-! ## The value result -/

omit [FloatOps F] in
/-- Which indices of the value result point `t`'s cache copy writes: slab (b, h), rows below 4096. -/
theorem memCV (t : Fin cfg0.N) (j : S8x32x4097x128.Idx) :
    j ∈ (dstC (Memref.whole main_v0_1) t).view.set ↔ ((j 0).val = t.val / 32 % 8 ∧ (j 1).val = t.val % 32 ∧ (j 2).val < 4096) := by
  have e : (dstC (Memref.whole main_v0_1) t).view.set
      = (Rect.unit (s := S8x32x4097x128) (k0_off1 (grid0.coords t)) S1x1x4096x128.size (k0_off1_inb (grid0.coords t))).set :=
    (View.set_reshape _ _).trans (View.set_slice_whole _ _)
  rw [e, Rect.mem_set_unit, k0_off1_eq]
  have c0 := coords0 t; have c1 := coords1 t
  constructor
  · intro h
    have h0 : (grid0.coords t 0).val ≤ (j 0).val ∧ (j 0).val < (grid0.coords t 0).val + 1 := h 0
    have h1 : (grid0.coords t 1).val ≤ (j 1).val ∧ (j 1).val < (grid0.coords t 1).val + 1 := h 1
    have h2 : 0 ≤ (j 2).val ∧ (j 2).val < 0 + 4096 := h 2
    omega
  · intro ⟨e0, e1, e2⟩ a
    have h3 : (j 3).val < 128 := (j 3).isLt
    fin_cases a
    · show (grid0.coords t 0).val ≤ (j 0).val ∧ (j 0).val < (grid0.coords t 0).val + 1; omega
    · show (grid0.coords t 1).val ≤ (j 1).val ∧ (j 1).val < (grid0.coords t 1).val + 1; omega
    · show 0 ≤ (j 2).val ∧ (j 2).val < 0 + 4096; omega
    · show 0 ≤ (j 3).val ∧ (j 3).val < 0 + 128; omega

omit [FloatOps F] in
/-- Which indices of the value result point `t`'s row copy writes: slab (b, h), row 4096. -/
theorem memSV (t : Fin cfg0.N) (j : S8x32x4097x128.Idx) :
    j ∈ (dstS (Memref.whole main_v0_1) t).view.set ↔ ((j 0).val = t.val / 32 % 8 ∧ (j 1).val = t.val % 32 ∧ (j 2).val = 4096) := by
  have e : (dstS (Memref.whole main_v0_1) t).view.set
      = (Rect.unit (s := S8x32x4097x128) (k0_off3 (grid0.coords t)) S1x1x1x128.size (k0_off3_inb (grid0.coords t))).set :=
    (View.set_reshape _ _).trans (View.set_slice_whole _ _)
  rw [e, Rect.mem_set_unit, k0_off3_eq]
  have c0 := coords0 t; have c1 := coords1 t
  constructor
  · intro h
    have h0 : (grid0.coords t 0).val ≤ (j 0).val ∧ (j 0).val < (grid0.coords t 0).val + 1 := h 0
    have h1 : (grid0.coords t 1).val ≤ (j 1).val ∧ (j 1).val < (grid0.coords t 1).val + 1 := h 1
    have h2 : 4096 ≤ (j 2).val ∧ (j 2).val < 4096 + 1 := h 2
    omega
  · intro ⟨e0, e1, e2⟩ a
    have h3 : (j 3).val < 128 := (j 3).isLt
    fin_cases a
    · show (grid0.coords t 0).val ≤ (j 0).val ∧ (j 0).val < (grid0.coords t 0).val + 1; omega
    · show (grid0.coords t 1).val ≤ (j 1).val ∧ (j 1).val < (grid0.coords t 1).val + 1; omega
    · show 4096 ≤ (j 2).val ∧ (j 2).val < 4096 + 1; omega
    · show 0 ≤ (j 3).val ∧ (j 3).val < 0 + 128; omega

omit [FloatOps F] in
/-- Where the cache copy's destination view places row `r`, column `d`: (b, h, r, d). -/
theorem embDstCV (t : Fin cfg0.N) (r : Fin 4096) (d : Fin 128) (a : Fin 4) :
    ((dstC (Memref.whole main_v0_1) t).view.emb (ix2 r d) a).val = (![(grid0.coords t 0).val, (grid0.coords t 1).val, r.val, d.val] : Fin 4 → Nat) a := by
  show k0_off1 (grid0.coords t) a + 1 * ((Shape.reshapeEquiv (Shape.Squeezes.numel_eq squeezes_S1x1x4096x128_S4096x128) (ix2 r d)) a).val = _
  rw [reshapeEquiv_ix2_11ab, k0_off1_eq]
  fin_cases a <;> simp [ix4]

omit [FloatOps F] in
/-- Where the row copy's destination view places column `d`: (b, h, 4096, d). -/
theorem embDstSV (t : Fin cfg0.N) (d : Fin 128) (a : Fin 4) :
    ((dstS (Memref.whole main_v0_1) t).view.emb (ix2 (0 : Fin 1) d) a).val = (![(grid0.coords t 0).val, (grid0.coords t 1).val, 4096, d.val] : Fin 4 → Nat) a := by
  show k0_off3 (grid0.coords t) a + 1 * ((Shape.reshapeEquiv (Shape.Squeezes.numel_eq squeezes_S1x1x1x128_S1x128) (ix2 (0 : Fin 1) d)) a).val = _
  rw [reshapeEquiv_ix2_11ab, k0_off3_eq]
  fin_cases a <;> simp [ix4]

omit [FloatOps F] in
/-- Where the cache copy's source view reads row `r`, column `d`: (b, h, r, d) of the cache. -/
theorem embSrcCV (t : Fin cfg0.N) (r : Fin 4096) (d : Fin 128) (a : Fin 4) :
    ((srcC (Memref.whole main_arg1) t).view.emb (ix2 r d) a).val = (![(grid0.coords t 0).val, (grid0.coords t 1).val, r.val, d.val] : Fin 4 → Nat) a := by
  show k0_off2 (grid0.coords t) a + 1 * ((Shape.reshapeEquiv (Shape.Squeezes.numel_eq squeezes_S1x1x4096x128_S4096x128) (ix2 r d)) a).val = _
  rw [reshapeEquiv_ix2_11ab, k0_off2_eq]
  fin_cases a <;> simp [ix4]

omit [FloatOps F] in
/-- Where the row copy's source view reads column `d`: (b, h, 0, d) of the new states. -/
theorem embSrcSV (t : Fin cfg0.N) (d : Fin 128) (a : Fin 4) :
    ((srcS (Memref.whole main_arg3) t).view.emb (ix2 (0 : Fin 1) d) a).val = (![(grid0.coords t 0).val, (grid0.coords t 1).val, 0, d.val] : Fin 4 → Nat) a := by
  show k0_off4 (grid0.coords t) a + 1 * ((Shape.reshapeEquiv (Shape.Squeezes.numel_eq squeezes_S1x1x1x128_S1x128) (ix2 (0 : Fin 1) d)) a).val = _
  rw [reshapeEquiv_ix2_11ab, k0_off4_eq]
  fin_cases a <;> simp [ix4]

/-- One slab step of the value result, index by index: on slab (b, h) of point `t` the cache with its row appended,
    elsewhere what was there. -/
theorem slabStepV_apply (c : Dev nD) (t : Fin cfg0.N) (ac : Bf (F := F) c main_arg1) (ar : Bf (F := F) c main_arg3)
    (f : Bf (F := F) c main_v0_1) (j : S8x32x4097x128.Idx) :
    slabStepV c t ac ar f j = if Append.slabOf j = t.val then Append.appendRow ac ar j else f j := by
  have ht : t.val < 256 := lt_of_lt_of_eq t.isLt N_0
  have h0 : (j 0).val < 8 := (j 0).isLt
  have h1 : (j 1).val < 32 := (j 1).isLt
  have h2 : (j 2).val < 4097 := (j 2).isLt
  have c0 := coords0 t
  have c1 := coords1 t
  by_cases hm : Append.slabOf j = t.val
  · rw [if_pos hm]
    have e0 : (j 0).val = t.val / 32 % 8 := by unfold Append.slabOf at hm; omega
    have e1 : (j 1).val = t.val % 32 := by unfold Append.slabOf at hm; omega
    by_cases hs : (j 2).val < 4096
    · -- a cache row: the row copy does not reach it, the cache copy writes it
      have hnS : j ∉ (dstS (Memref.whole main_v0_1) t).view.setOn Finset.univ := fun h => by
        have := (memSV t j).mp h; omega
      have hy : (dstC (Memref.whole main_v0_1) t).view.emb (ix2 (⟨(j 2).val, hs⟩ : Fin 4096) (j 3 : Fin 128)) = j :=
        funext fun (a : Fin 4) => Fin.ext ((embDstCV t ⟨(j 2).val, hs⟩ (j 3) a).trans (by
          fin_cases a
          · show (grid0.coords t 0).val = (j 0).val; omega
          · show (grid0.coords t 1).val = (j 1).val; omega
          · rfl
          · rfl))
      refine (View.write_of_not_mem _ _ _ hnS).trans ?_
      conv_lhs => rw [← hy, View.write_emb_of_mem _ _ (Finset.mem_univ _)]
      unfold Append.appendRow
      rw [dif_pos hs]
      show ac ((srcC (Memref.whole main_arg1) t).view.emb (ix2 (⟨(j 2).val, hs⟩ : Fin 4096) (j 3 : Fin 128))) = ac _
      exact congrArg ac (funext fun (a : Fin 4) => Fin.ext ((embSrcCV t ⟨(j 2).val, hs⟩ (j 3) a).trans (by
        fin_cases a
        · show (grid0.coords t 0).val = (j 0).val; omega
        · show (grid0.coords t 1).val = (j 1).val; omega
        · rfl
        · rfl)))
    · -- the appended row: the row copy writes it
      have e2 : (j 2).val = 4096 := by omega
      have hy : (dstS (Memref.whole main_v0_1) t).view.emb (ix2 (0 : Fin 1) (j 3 : Fin 128)) = j :=
        funext fun (a : Fin 4) => Fin.ext ((embDstSV t (j 3) a).trans (by
          fin_cases a
          · show (grid0.coords t 0).val = (j 0).val; omega
          · show (grid0.coords t 1).val = (j 1).val; omega
          · show 4096 = (j 2).val; omega
          · rfl))
      show (dstS (Memref.whole main_v0_1) t).view.write (Elt F) _ _ Finset.univ j = _
      conv_lhs => rw [← hy, View.write_emb_of_mem _ _ (Finset.mem_univ _)]
      unfold Append.appendRow
      rw [dif_neg hs]
      show ar ((srcS (Memref.whole main_arg3) t).view.emb (ix2 (0 : Fin 1) (j 3 : Fin 128))) = ar _
      exact congrArg ar (funext fun (a : Fin 4) => Fin.ext ((embSrcSV t (j 3) a).trans (by
        fin_cases a
        · show (grid0.coords t 0).val = (j 0).val; omega
        · show (grid0.coords t 1).val = (j 1).val; omega
        · rfl
        · rfl)))
  · rw [if_neg hm]
    have hnS : j ∉ (dstS (Memref.whole main_v0_1) t).view.setOn Finset.univ := fun h => by
      have := (memSV t j).mp h; unfold Append.slabOf at hm; omega
    have hnC : j ∉ (dstC (Memref.whole main_v0_1) t).view.setOn Finset.univ := fun h => by
      have := (memCV t j).mp h; unfold Append.slabOf at hm; omega
    exact (View.write_of_not_mem _ _ _ hnS).trans (View.write_of_not_mem _ _ _ hnC)

/-! ## After the last point -/

variable (m : (ℓ : Loc nD τ sig) → Buf (Elt F) ℓ)

/-- After all 256 points the key result is the key cache with the new key row appended, -/
theorem outK_final (c : Dev nD) : outK m c cfg0.N = Append.appendRow (V m c main_arg0) (V m c main_arg2) :=
  (congrArg (outK m c) N_0).trans (Append.sweep_eq (V m c main_arg0) (V m c main_arg2) (fun n => outK m c n) (fun n hn j => by
    have e := outK_succ m c ⟨n, lt_of_lt_of_eq hn N_0.symm⟩
    show outK m c (n + 1) j = _
    rw [e]
    exact slabStepK_apply c ⟨n, lt_of_lt_of_eq hn N_0.symm⟩ _ _ _ j))

/-- and the value result the value cache with the new value row appended. -/
theorem outV_final (c : Dev nD) : outV m c cfg0.N = Append.appendRow (V m c main_arg1) (V m c main_arg3) :=
  (congrArg (outV m c) N_0).trans (Append.sweep_eq (V m c main_arg1) (V m c main_arg3) (fun n => outV m c n) (fun n hn j => by
    have e := outV_succ m c ⟨n, lt_of_lt_of_eq hn N_0.symm⟩
    show outV m c (n + 1) j = _
    rw [e]
    exact slabStepV_apply c ⟨n, lt_of_lt_of_eq hn N_0.symm⟩ _ _ _ j))

end Cert.Proof.KI

end
-- ==== Proof.lean ====
/-
  A key/value cache update by copying: the kernel leaves its six arrays in HBM and, at each of the 256 grid points
  (b, h), copies the key cache's slab and the new key row into slab (b, h) of the first result, and the same for the
  values into the second, by four transfers it starts together and then waits for. The reference is two concatenations
  along the sequence axis. Nothing is computed, so the two agree over any values, the extended reals included, and the
  precondition is never opened.

  The frames of the two kernel programs (the word-level one and its idealization, one text read at two instances) come
  from the run of the module `RunBits` / `RunIdeal`: the body's run at a symbolic point carried through the 256 points by
  an invariant that names what the results hold after each point, the arguments read back unchanged. The reference's
  frame is its generated run with the results dropped. For the value claim both sides are brought to one function,
  `appendRow` of the cache and the new row: the kernel's results because each slab step writes exactly its slab and the
  grid visits every slab once (`ValueIdeal`), the reference's because a two-piece concatenation along axis 2 is that
  function (`AppendSpec`). The idealization rewrote nothing, so `preserves` is trivial.
-/
import proofs.«111090_j45294725104260_2_alg».proof.Defs
import proofs.«111090_j45294725104260_2_alg».proof.Proof.Gen.Kernel
import proofs.«111090_j45294725104260_2_alg».proof.Proof.Gen.KernelIdeal
import proofs.«111090_j45294725104260_2_alg».proof.Proof.Gen.ReferenceIdeal
import proofs.«111090_j45294725104260_2_alg».proof.Proof.Gen.Pre_finite_inputs
import proofs.«111090_j45294725104260_2_alg».proof.Proof.Gen.ReferenceIdeal.Run
import proofs.«111090_j45294725104260_2_alg».proof.Proof.RunBits
import proofs.«111090_j45294725104260_2_alg».proof.Proof.ValueIdeal
import Idealize.ShloMosaic.Adequacy
import Idealize.ShloMosaic.Init

noncomputable section

namespace Cert.Proof

open Idealize.ShloMosaic Idealize.SL.Sem

/-- The word-level kernel runs to its end and reads its four arguments back unchanged. -/
theorem frame_kernel : Cert.frame_Kernel := fun m ρ _ =>
  (θ_run Cert.Kernel.defs _ _).mono (fun _ h c => ⟨K.final_arg0 h c, K.final_arg1 h c, K.final_arg2 h c, K.final_arg3 h c⟩)
    (K.run_main (F := Bits) m ρ)

/-- So does its idealization. -/
theorem frame_kernelIdeal : Cert.frame_KernelIdeal := fun m ρ _ =>
  (θ_run Cert.KernelIdeal.defs _ _).mono (fun _ h c => ⟨KI.final_arg0 h c, KI.final_arg1 h c, KI.final_arg2 h c, KI.final_arg3 h c⟩)
    (KI.run_main (F := Ideal) m ρ)

/-- The reference's frame: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with each result the cache with its new row appended, of arguments that agree. -/
theorem algebraic : Cert.algebraic_KernelIdeal_ReferenceIdeal := fun m ρ m' ρ' _ hagree =>
  ⟨fun c => Append.appendRow (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    fun c => Append.appendRow (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    (θ_run Cert.KernelIdeal.defs _ _).mono
      (fun _ h c => ⟨(KI.final_v0_0 h c).trans (KI.outK_final m c), (KI.final_v0_1 h c).trans (KI.outV_final m c),
        KI.final_arg0 h c, KI.final_arg1 h c, KI.final_arg2 h c, KI.final_arg3 h c⟩)
      (KI.run_main (F := Ideal) m ρ),
    (θ_run Cert.ReferenceIdeal.defs _ _).mono
      (fun _ h c => ⟨(h c).1.trans (by
          rw [(hagree c).1, (hagree c).2.2.1]
          exact Append.concatenate_eq_appendRow _ _ _),
        (h c).2.1.trans (by
          rw [(hagree c).2.1, (hagree c).2.2.2]
          exact Append.concatenate_eq_appendRow _ _ _),
        (h c).2.2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
